-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x2 : Shape := ⟨2, ![256, 2]⟩
abbrev S2 : Shape := ⟨1, ![2]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S8192x256 .f32) (main_arg1 : FVec F S8192x256 .f32) (main_arg2 : FVec F S256x2 .f32) (main_arg3 : FVec F S2 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S8192x256 : Shape := ⟨2, ![8192, 256]⟩
abbrev S256x2 : Shape := ⟨2, ![256, 2]⟩
abbrev S2 : Shape := ⟨1, ![2]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x2 : Shape := ⟨2, ![1, 2]⟩
abbrev S8192x8192 : Shape := ⟨2, ![8192, 8192]⟩
abbrev S128x256 : Shape := ⟨2, ![128, 256]⟩
abbrev S128x8192 : Shape := ⟨2, ![128, 8192]⟩
abbrev S128 : Shape := ⟨1, ![128]⟩
abbrev S128x1 : Shape := ⟨2, ![128, 1]⟩
abbrev S128x2 : Shape := ⟨2, ![128, 2]⟩

abbrev nBuf : Space → Nat
  | .hbm => 11
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x2, .f32⟩
  | .hbm, ⟨3, _⟩ => ⟨S2, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S1x2, .f32⟩
  | .hbm, ⟨10, _⟩ => ⟨S8192x8192, .f32⟩
  | .local _ .vmem, ⟨0, _⟩ => ⟨S128x256, .f32⟩
  | .local _ .vmem, ⟨1, _⟩ => ⟨S128x256, .f32⟩
  | .local _ .vmem, ⟨2, _⟩ => ⟨S8192x256, .f32⟩
  | .local _ .vmem, ⟨3, _⟩ => ⟨S1x8192, .f32⟩
  | .local _ .vmem, ⟨4, _⟩ => ⟨S256x2, .f32⟩
  | .local _ .vmem, ⟨5, _⟩ => ⟨S1x2, .f32⟩
  | .local _ .vmem, ⟨6, _⟩ => ⟨S128x8192, .f32⟩
  | .local _ .vmem, ⟨7, _⟩ => ⟨S128x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  shapeCasts_S2_S1x2 : S2.ShapeCasts S1x2
  inb_S128x256_S128x256_0_0 : ∀ a, (![0, 0] : Fin 2 → Nat) a + S128x256.size a ≤ S128x256.size a
  h_S128x256 : 0 < S128x256.numel
  inb_S8192x256_S8192x256_0_0 : ∀ a, (![0, 0] : Fin 2 → Nat) a + S8192x256.size a ≤ S8192x256.size a
  h_S8192x256 : 0 < S8192x256.numel
  reduces_S128x256_S128 : S128x256.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  slices_S128x2_o0_0_S128x1 : S128x2.Slices ![0, 0] S128x1
  slices_S128x2_o0_1_S128x1 : S128x2.Slices ![0, 1] S128x1
  inb_S128x8192_S128x8192_0_0 : ∀ a, (![0, 0] : Fin 2 → Nat) a + S128x8192.size a ≤ S128x8192.size a
  h_S128x8192 : 0 < S128x8192.numel
  dot_S128x256_S8192x256_S128x8192_1_1_0_0_n_n_wf : DotDims.WF S128x256 S8192x256 S128x8192 [1] [1] [0] [0] [] []
  dot_S128x256_S256x2_S128x2_1_0_0_1_n_n_wf : DotDims.WF S128x256 S256x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S8192x8192.size a
  hwx0_5 : ∀ i : grid0.Coords, EltTy.bits .f32 = 32 ∨ (Rect.block (s := S8192x8192) S128x8192.size (cc0_transform_5 i) (hinb0_5 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S128x256_S256x2_S128x2_1_0_0_1_n_n : DotDims S128x256 S256x2 S128x2 where
  lhsContracting := [1]
  rhsContracting := [0]
  lhsNonContracting := [0]
  rhsNonContracting := [1]
  lhsBatch := []
  rhsBatch := []
  wf := dot_S128x256_S256x2_S128x2_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x2 : Shape := ⟨2, ![256, 2]⟩
abbrev S2 : Shape := ⟨1, ![2]⟩
abbrev S8192x2 : Shape := ⟨2, ![8192, 2]⟩
abbrev S1x2 : Shape := ⟨2, ![1, 2]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x2, .f32⟩
  | .hbm, ⟨3, _⟩ => ⟨S2, .f32⟩
  | .hbm, ⟨4, _⟩ => ⟨S8192x2, .f32⟩
  | .hbm, ⟨5, _⟩ => ⟨S1x2, .f32⟩
  | .hbm, ⟨6, _⟩ => ⟨S8192x2, .f32⟩
  | .hbm, ⟨7, _⟩ => ⟨S8192x2, .f32⟩
  | .hbm, ⟨8, _⟩ => ⟨S8192x2, .f32⟩
  | .hbm, ⟨9, _⟩ => ⟨S8192x2, .f32⟩
  | .hbm, ⟨10, _⟩ => ⟨S_, .f32⟩
  | .hbm, ⟨11, _⟩ => ⟨S8192x2, .f32⟩
  | .hbm, ⟨12, _⟩ => ⟨S8192x2, .f32⟩
  | .hbm, ⟨13, _⟩ => ⟨S_, .f32⟩
  | .hbm, ⟨14, _⟩ => ⟨S8192x2, .f32⟩
  | .hbm, ⟨15, _⟩ => ⟨S8192x2, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x256, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S1x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S256x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x8192, .f32⟩
  | .hbm, ⟨64, _⟩ => ⟨S8192x8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .i1⟩
  | .hbm, ⟨85, _⟩ => ⟨S_, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_cst_5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_11 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_call2_v0 : Ref sig .tc := ⟨.hbm, 86, rfl⟩
abbrev main_call2_v1 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  slices_S8192x2_S8192x1_0_0 : S8192x2.Slices ![0, 0] S8192x1
  bcast_S_S8192x1 : S_.BroadcastsInDim S8192x1 (![] : Fin 0 → Fin S8192x1.rank)
  slices_S8192x2_S8192x1_0_1 : S8192x2.Slices ![0, 1] S8192x1
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  dot_S8192x256_S256x2_S8192x2_1_0_0_1_n_n_wf : DotDims.WF S8192x256 S256x2 S8192x2 [1] [0] [0] [1] [] []
  dot_S8192x256_S256x8192_S8192x8192_1_0_0_1_n_n_wf : DotDims.WF S8192x256 S256x8192 S8192x8192 [1] [0] [0] [1] [] []

variable [Facts₀]

def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.LibClampLogLaws.lean ====
/-
  GENERAL LEMMAS on the extended reals at the ideal float values; the file imports only the library.
  The two laws on the extended reals that join a row-normalised similarity computed with a reciprocal and a
  difference of logarithms to the same quantity computed with a quotient and the logarithm of a quotient, and
  the values of the three float constants the laws are applied at.

  Write `a / r` for the ideal quotient: `a · r⁻¹` when `r ≠ 0`; by zero it is `⊤` for `a > 0` and `⊥`
  otherwise (so `0 / 0 = ⊥`), while `0 · ⊤ = 0`.

  * CLAMPED RECIPROCAL. `max (a · (1 / r)) e = max (a / r) e` for every `a`, `r` and every `e ≥ 0`. Off `r = 0`
    both sides are `a · r⁻¹`. At `r = 0` the reciprocal is `⊤`: for `a > 0` both are `⊤`, for `a < 0` both are
    `⊥`, and for `a = 0` the product is `0` and the quotient `⊥`, both of which the clamp from below by
    `e ≥ 0` sends to `e`. No finiteness is used.
  * LOGARITHM OF A QUOTIENT. For a real `k > 0` and `s ≥ e > 0` (`s = ⊤` allowed),
    `log s − log k = log (s / k)`: on the reals this is `Real.log_div`, and at `s = ⊤` both sides are `⊤`.
  * A value clipped into `[e, 1]` with `0 < e` real is a positive real, whatever was clipped (`⊥` and `⊤` too).
-/
import Idealize.ShloMosaic.PureOps.Ideal
import Idealize.ShloMosaic.PureOps.Ideal.Laws

noncomputable section

namespace Cert.SoftKnn

open Idealize.ShloMosaic

/-! ## The constants -/

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- The clamp's floor (the f32 nearest `1e-12`) denotes a positive real. -/
theorem ofBits_eps : ∃ e : ℝ, 0 < e ∧ Ideal.ofBits .f32 0x2B8CBCCC#32 = (e : EReal) := by
  refine ⟨_, ?_, by simp [Ideal.ofBits, Ideal.ieee, -EReal.coe_mul]; rfl⟩
  positivity

/-! ## Subtraction from zero -/

/-- `0 − x = −x` on every extended real. -/
theorem zero_sub_eq_neg (x : EReal) : (0 : EReal) - x = -x := by
  rw [sub_eq_add_neg, zero_add]

/-! ## The clamped reciprocal -/

/-- Multiplying by the reciprocal and then clamping from below by `e ≥ 0` is dividing and then clamping, for EVERY
    dividend and divisor: off a zero divisor both are `a · r⁻¹`; at a zero divisor the reciprocal is `⊤`, the two sides
    are both `⊤` for `a > 0`, both `⊥` for `a < 0`, and `0` against `⊥` for `a = 0`, which the clamp sends to `e`. -/
theorem max_mul_recip_eq_max_div (a r e : EReal) (he : 0 ≤ e) :
    max (a * Ideal.div 1 r) e = max (Ideal.div a r) e := by
  unfold Ideal.div
  by_cases hr : r = 0
  · rw [if_pos hr, if_pos hr, if_pos (by exact_mod_cast (zero_lt_one : (0 : ℝ) < 1))]
    rcases lt_trichotomy a 0 with ha | ha | ha
    · rw [if_neg (not_lt.mpr ha.le), EReal.mul_top_of_neg ha]
    · subst ha
      rw [if_neg (lt_irrefl _), zero_mul, max_eq_right he, max_eq_right bot_le]
    · rw [if_pos ha, EReal.mul_top_of_pos ha]
  · rw [if_neg hr, if_neg hr, one_mul]

/-! ## A clipped value is a positive real -/

/-- `min 1 (max e p)` with `0 < e` real is a positive real whatever `p` is (`⊥` gives `min 1 e`, `⊤` gives `1`). -/
theorem clip_pos_real (e : ℝ) (he : 0 < e) (p : EReal) :
    ∃ k : ℝ, 0 < k ∧ min (1 : EReal) (max (e : EReal) p) = (k : EReal) := by
  induction p using EReal.rec with
  | bot =>
    refine ⟨min 1 e, lt_min one_pos he, ?_⟩
    rw [max_eq_left bot_le]
    exact (EReal.coe_strictMono.monotone.map_min (a := (1 : ℝ)) (b := e)).symm
  | top =>
    refine ⟨1, one_pos, ?_⟩
    rw [max_eq_right le_top, min_eq_left le_top, EReal.coe_one]
  | coe r =>
    refine ⟨min 1 (max e r), lt_min one_pos (lt_max_of_lt_left he), ?_⟩
    rw [EReal.coe_strictMono.monotone.map_min, EReal.coe_strictMono.monotone.map_max]
    rfl

/-! ## The logarithm of a quotient -/

/-- `log s − log k = log (s / k)` for a real `k > 0` and `s ≥ e > 0`, `s = ⊤` included (both sides are then `⊤`). -/
theorem log_sub_log_eq_log_div (e k : ℝ) (he : 0 < e) (hk : 0 < k) (s : EReal) (hs : (e : EReal) ≤ s) :
    Ideal.log s - Ideal.log (k : EReal) = Ideal.log (Ideal.div s (k : EReal)) := by
  rw [Ideal.div_coe hk.ne']
  have hik : (0 : ℝ) < 1 / k := by positivity
  induction s using EReal.rec with
  | bot => exact absurd hs (by simp)
  | top =>
    rw [Ideal.log_top, Ideal.log_coe, if_neg (not_le.mpr hk), EReal.top_mul_of_pos (by exact_mod_cast hik),
      Ideal.log_top]
    exact EReal.top_sub_coe _
  | coe r =>
    have hr : 0 < r := lt_of_lt_of_le he (by exact_mod_cast hs)
    have hrk : 0 < r * (1 / k) := by positivity
    rw [Ideal.log_coe, if_neg (not_le.mpr hr), Ideal.log_coe, if_neg (not_le.mpr hk), ← EReal.coe_mul,
      Ideal.log_coe, if_neg (not_le.mpr hrk), ← EReal.coe_sub]
    congr 1
    rw [mul_one_div, Real.log_div hr.ne' hk.ne']

/-- The same with the divisor a clipped value: `k = min 1 (max e p)`. -/
theorem log_sub_log_clip (e : ℝ) (he : 0 < e) (p s : EReal) (hs : (e : EReal) ≤ s) :
    Ideal.log s - Ideal.log (min (1 : EReal) (max (e : EReal) p))
      = Ideal.log (Ideal.div s (min (1 : EReal) (max (e : EReal) p))) := by
  obtain ⟨k, hk, hkeq⟩ := clip_pos_real e he p
  rw [hkeq]
  exact log_sub_log_eq_log_div e k he hk s hs

end Cert.SoftKnn

end
-- ==== Proof.SoftNeighbours.lean ====
/-
  The soft nearest-neighbour weighting, as ONE function of the argument arrays, entry by entry, over the
  extended reals.

  For a query row `a` (256 features) and the 8192 neighbour rows `Y j`, with `n j` standing for `‖Y j‖²`:
    * `negDist a (Y j) (n j) = −√(max (‖a‖² + n j − 2·⟨a, Y j⟩) 0)`, minus the Euclidean distance by the
      expansion of the square;
    * `rowMin`, `rowMax`: the least and the greatest of a row's 8192 values (folds of `min` from `+∞` and of
      `max` from `−∞`);
    * `normSim f j = max ((f j − min f) / (max f − min f)) ε`: the row rescaled to `[0, 1]` and clamped from
      below by `ε`;
    * `clip p = min 1 (max ε p)`; the two gates of a row are the clipped logistic values of the linear head
      `⟨a, w_e⟩ + b_e`, `e = 0, 1`: `k` and `t`;
    * `soft s k t = s + (if s ≤ k then (t / (1 − t)) · (k − s) · log (s / k) else 0)`.
  `entry` puts them together for one output entry, `softKnn` reads the rows off the arrays.

  Two equations let a computation that multiplies by a reciprocal and subtracts logarithms land on the same
  function: `normSim_recip` (the clamped reciprocal law) and `soft_log_sub` (the logarithm of a quotient, at a
  clipped divisor and a clamped dividend).
-/
import proofs.«172229_j27762668601761_2_alg».proof.Proof.LibClampLogLaws
import Idealize.ShloMosaic.Lib.ValueIdx

noncomputable section

namespace Cert.SoftKnn

open Idealize.ShloMosaic Idealize.ShloMosaic.ValueIdx

local notation "cEPS" => Ideal.ofBits FTy.f32 0x2B8CBCCC#32
local notation "cONE" => Ideal.ofBits FTy.f32 0x3F800000#32
local notation "cTWO" => Ideal.ofBits FTy.f32 0x40000000#32
local notation "cZERO" => Ideal.ofBits FTy.f32 0x00000000#32
local notation "cPINF" => Ideal.ofBits FTy.f32 0x7F800000#32
local notation "cNINF" => Ideal.ofBits FTy.f32 0xFF800000#32

/-- Minus the distance from `a` to `b`, `nb` standing for `‖b‖²`. -/
def negDist (a b : Fin 256 → EReal) (nb : EReal) : EReal :=
  -(Ideal.sqrt (max (((∑ d, a d * a d) + nb) - cTWO * ∑ d, a d * b d) cZERO))

/-- The least value of a row. -/
def rowMin (f : Fin 8192 → EReal) : EReal := (Finset.univ : Finset (Fin 8192)).fold min cPINF f

/-- The greatest value of a row. -/
def rowMax (f : Fin 8192 → EReal) : EReal := (Finset.univ : Finset (Fin 8192)).fold max cNINF f

/-- The row rescaled by its range and clamped from below. -/
def normSim (f : Fin 8192 → EReal) (j : Fin 8192) : EReal :=
  max (Ideal.div (f j - rowMin f) (rowMax f - rowMin f)) cEPS

theorem eps_le_normSim (f : Fin 8192 → EReal) (j : Fin 8192) : cEPS ≤ normSim f j := le_max_right _ _

/-- Multiplying by the reciprocal of the range, then clamping, is `normSim`. -/
theorem normSim_recip (f : Fin 8192 → EReal) (j : Fin 8192) :
    max ((f j - rowMin f) * Ideal.div cONE (rowMax f - rowMin f)) cEPS = normSim f j := by
  obtain ⟨e, he, hE⟩ := ofBits_eps
  unfold normSim
  rw [ofBits_one]
  refine max_mul_recip_eq_max_div _ _ _ ?_
  rw [hE]
  exact_mod_cast he.le

/-- A value clipped into `[ε, 1]`. -/
def clip (p : EReal) : EReal := min cONE (max cEPS p)

/-- The soft threshold of a normalised similarity `s` at gates `k`, `t`. -/
def soft (s k t : EReal) : EReal :=
  s + Scalar.select (Ideal.cmp .ole s k) ((Ideal.div t (cONE - t) * (k - s)) * Ideal.log (Ideal.div s k)) cZERO

/-- With the logarithm of the quotient written as a difference of logarithms. -/
theorem soft_log_sub (s p t : EReal) (hs : cEPS ≤ s) :
    s + Scalar.select (Ideal.cmp .ole s (clip p))
        ((Ideal.div t (cONE - t) * (clip p - s)) * (Ideal.log s - Ideal.log (clip p))) cZERO
      = soft s (clip p) t := by
  obtain ⟨e, he, hE⟩ := ofBits_eps
  have hl : Ideal.log s - Ideal.log (clip p) = Ideal.log (Ideal.div s (clip p)) := by
    unfold clip
    rw [ofBits_one, hE]
    rw [hE] at hs
    exact log_sub_log_clip e he p s hs
  unfold soft
  rw [hl]

/-- One output entry: query row `a`, neighbour rows `Y` with squared norms `n`, head columns `w0`, `w1` and biases. -/
def entry (a : Fin 256 → EReal) (Y : Fin 8192 → Fin 256 → EReal) (n : Fin 8192 → EReal)
    (w0 w1 : Fin 256 → EReal) (b0 b1 : EReal) (j : Fin 8192) : EReal :=
  soft (normSim (fun j' => negDist a (Y j') (n j')) j)
    (clip (Ideal.logistic ((∑ d, a d * w0 d) + b0)))
    (clip (Ideal.logistic ((∑ d, a d * w1 d) + b1)))

/-- The squared norm of row `j` of a [8192, 256] array. -/
def sqNorm (x : (⟨2, ![8192, 256]⟩ : Shape).Idx → EReal) (j : Fin 8192) : EReal := ∑ d : Fin 256, x (ix2 j d) * x (ix2 j d)

/-- The whole result at row `i`, column `j`, from the four argument arrays. -/
def softKnn (x0 x1 : (⟨2, ![8192, 256]⟩ : Shape).Idx → EReal) (x2 : (⟨2, ![256, 2]⟩ : Shape).Idx → EReal)
    (x3 : (⟨1, ![2]⟩ : Shape).Idx → EReal) (i j : Fin 8192) : EReal :=
  entry (fun d => x0 (ix2 i d)) (fun j' d => x1 (ix2 j' d)) (sqNorm x1)
    (fun d => x2 (ix2 d (0 : Fin 2))) (fun d => x2 (ix2 d (1 : Fin 2))) (x3 (ix1 (0 : Fin 2))) (x3 (ix1 (1 : Fin 2))) j

/-- The same as an array over the result's index type. -/
def softKnnArr (x0 x1 : (⟨2, ![8192, 256]⟩ : Shape).Idx → EReal) (x2 : (⟨2, ![256, 2]⟩ : Shape).Idx → EReal)
    (x3 : (⟨1, ![2]⟩ : Shape).Idx → EReal) : (⟨2, ![8192, 8192]⟩ : Shape).Idx → EReal :=
  fun idx => softKnn x0 x1 x2 x3 ⟨(idx 0).val, (idx 0).isLt⟩ ⟨(idx 1).val, (idx 1).isLt⟩

theorem softKnnArr_ix2 (x0 x1 : (⟨2, ![8192, 256]⟩ : Shape).Idx → EReal) (x2 : (⟨2, ![256, 2]⟩ : Shape).Idx → EReal)
    (x3 : (⟨1, ![2]⟩ : Shape).Idx → EReal) (i j : Fin 8192) :
    softKnnArr x0 x1 x2 x3 (ix2 i j) = softKnn x0 x1 x2 x3 i j := rfl

end Cert.SoftKnn

end
-- ==== Proof.BlockReads.lean ====
/-
  What one grid point's body computes, entry by entry, at the extended reals.

  The body works on a block of 128 query rows `P0`, all 8192 neighbour rows `P1`, the row `P2` of the neighbours'
  squared norms, the head's weights `P3` and its bias row `P4`. Read at row `p` and column `q` of the block:
    * the lane sum of `P0 ∘ P0` along a row is `∑ d, P0 (p, d)²`; the lane minimum and maximum of a [128, 8192]
      value along a row are the folds of `min` / `max` over that row's 8192 entries;
    * the matrix product contracting the feature axis of both operands is `∑ d, P0 (p, d) · P1 (q, d)`, and the
      head's product is `∑ d, P0 (p, d) · P3 (d, e)`;
    * so the body's block of negated distances is `negDist` of row `p` against neighbour `q`, its clamped
      rescaling by the reciprocal of the row's range is `normSim` (the clamped reciprocal law), the head is the
      logistic of the affine form, and the stored value is `entry` (the logarithm-of-a-quotient law).
-/
import proofs.«172229_j27762668601761_2_alg».proof.Proof.KernelValueLeg
import proofs.«172229_j27762668601761_2_alg».proof.Proof.SoftNeighbours
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Idealize.ShloMosaic.TcCoe Cert.SoftKnn

/-! ## Columns, rows and their spreading over the block -/

/-- A [128, 1] column spread over the 8192 lanes reads, at (p, q), the column's entry of row p. -/
theorem spreadCol_apply (col : FVec Ideal S128x1 .f32) (p : Fin 128) (q : Fin 8192) :
    broadcastTo S128x8192 col broadcasts_S128x1_S128x8192 (ix2 p q) = col (ix2 p (0 : Fin 1)) :=
  broadcastTo_apply col broadcasts_S128x1_S128x8192 (ix2 p q) (ix2 p (0 : Fin 1)) fun a =>
    match a with
    | ⟨0, _⟩ => by show p.val = (if (128 : Nat) = 1 then 0 else p.val); rw [if_neg (by decide)]
    | ⟨1, _⟩ => by show 0 = (if (1 : Nat) = 1 then 0 else q.val); rw [if_pos rfl]

/-- 128 row values viewed as a [128, 1] column. -/
theorem asCol_apply (v : FVec Ideal S128 .f32) (p : Fin 128) :
    shapeCast S128x1 v shapeCasts_S128_S128x1 (ix2 p (0 : Fin 1)) = v (ix1 p) :=
  shapeCast_apply v shapeCasts_S128_S128x1 (ix2 p (0 : Fin 1)) (ix1 p) (by
    rw [Shape.rowMajor_val_one, Shape.rowMajor_val_two]; show p.val = p.val * 1 + 0; omega)

/-! ## The reductions along a row -/

/-- The lane sum of the squares along row p. -/
theorem rowSq_apply (P0 : Vec Ideal S128x256 .f32) (p : Fin 128) :
    multiReduction (F := Ideal) .add [1] S128 (mulf P0 P0) 0x00000000#32 reduces_S128x256_S128 (.inl rfl) rfl (ix1 p)
      = ∑ d : Fin 256, P0 (ix2 p d) * P0 (ix2 p d) := by
  refine (Ideal.multiReduction_add_single (mulf P0 P0) 0x00000000#32 reduces_S128x256_S128 (.inl rfl) rfl (ix1 p)).trans ?_
  refine Finset.sum_congr rfl fun d _ => ?_
  have e : reduces_S128x256_S128.lift (ix1 p) d = ix2 p d :=
    funext fun a => Fin.ext (by match a with | ⟨0, _⟩ => rfl | ⟨1, _⟩ => rfl)
  rw [e]; rfl

/-- The lane minimum along row p is the least of the row's entries. -/
theorem rowMin_apply (src : FVec Ideal S128x8192 .f32) (p : Fin 128) :
    multiReduction (F := Ideal) .minimumf [1] S128 src 0x7F800000#32 reduces_S128x8192_S128 (.inl rfl) rfl (ix1 p)
      = rowMin (fun q => src (ix2 p q)) := by
  refine (multiReduction_minimumf_eq_fold src 0x7F800000#32 reduces_S128x8192_S128 (.inl rfl) rfl (ix1 p)).trans ?_
  refine (reduces_S128x8192_S128.fold_filter_drop_single _ _ src (ix1 p)).trans ?_
  have e : (src ∘ reduces_S128x8192_S128.lift (ix1 p)) = fun q => src (ix2 p q) :=
    funext fun q => congrArg src (funext fun a => Fin.ext (by match a with | ⟨0, _⟩ => rfl | ⟨1, _⟩ => rfl))
  rw [e]; rfl

/-- The lane maximum along row p is the greatest of the row's entries. -/
theorem rowMax_apply (src : FVec Ideal S128x8192 .f32) (p : Fin 128) :
    multiReduction (F := Ideal) .maximumf [1] S128 src 0xFF800000#32 reduces_S128x8192_S128 (.inl rfl) rfl (ix1 p)
      = rowMax (fun q => src (ix2 p q)) := by
  refine (multiReduction_maximumf_eq_fold src 0xFF800000#32 reduces_S128x8192_S128 (.inl rfl) rfl (ix1 p)).trans ?_
  refine (reduces_S128x8192_S128.fold_filter_drop_single _ _ src (ix1 p)).trans ?_
  have e : (src ∘ reduces_S128x8192_S128.lift (ix1 p)) = fun q => src (ix2 p q) :=
    funext fun q => congrArg src (funext fun a => Fin.ext (by match a with | ⟨0, _⟩ => rfl | ⟨1, _⟩ => rfl))
  rw [e]; rfl

/-! ## The two matrix products -/

/-- Query rows against neighbour rows, contracting the feature axis of both: the inner product of the two rows. -/
theorem dots_apply (P0 : Vec Ideal S128x256 .f32) (P1 : Vec Ideal S8192x256 .f32) (p : Fin 128) (q : Fin 8192) :
    matmul (F := Ideal) (φ₁ := .f32) (φ₂ := .f32) dot_S128x256_S8192x256_S128x8192_1_1_0_0_n_n (some .fp32) P0 P1 (constant S128x8192 .f32 0x00000000#32) (ix2 p q)
      = ∑ d : Fin 256, P0 (ix2 p d) * P1 (ix2 q d) := by
  simp only [matmul]
  rw [Ideal.matmul_constant_zero_apply, ← Equiv.sum_comp (contrEquiv1 dot_S128x256_S8192x256_S128x8192_1_1_0_0_n_n 256 rfl rfl).symm]
  refine Finset.sum_congr rfl fun k _ => ?_
  have hk := contrEquiv1_symm_val dot_S128x256_S8192x256_S128x8192_1_1_0_0_n_n 256 rfl rfl k
  have el : dot_S128x256_S8192x256_S128x8192_1_1_0_0_n_n.lhsIdx (ix2 p q) ((contrEquiv1 dot_S128x256_S8192x256_S128x8192_1_1_0_0_n_n 256 rfl rfl).symm k) = ix2 p k := funext fun a => Fin.ext (by
    match a with
    | ⟨0, _⟩ =>
      show (dot_S128x256_S8192x256_S128x8192_1_1_0_0_n_n.lhsIdx (ix2 p q) _ 0).val = p.val
      unfold DotDims.lhsIdx
      rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
      rfl
    | ⟨1, _⟩ => exact (dot_S128x256_S8192x256_S128x8192_1_1_0_0_n_n.lhsIdx_val_of_single rfl (ix2 p q) _).trans hk)
  have er : dot_S128x256_S8192x256_S128x8192_1_1_0_0_n_n.rhsIdx (ix2 p q) ((contrEquiv1 dot_S128x256_S8192x256_S128x8192_1_1_0_0_n_n 256 rfl rfl).symm k) = ix2 q k := funext fun a => Fin.ext (by
    match a with
    | ⟨0, _⟩ =>
      show (dot_S128x256_S8192x256_S128x8192_1_1_0_0_n_n.rhsIdx (ix2 p q) _ 0).val = q.val
      unfold DotDims.rhsIdx
      rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
      rfl
    | ⟨1, _⟩ => exact (dot_S128x256_S8192x256_S128x8192_1_1_0_0_n_n.rhsIdx_val_of_single rfl (ix2 p q) _).trans hk)
  rw [el, er]

/-- Query rows against the head's weights. -/
theorem headDots_apply (P0 : Vec Ideal S128x256 .f32) (P3 : Vec Ideal S256x2 .f32) (p : Fin 128) (e : Fin 2) :
    matmul (F := Ideal) (φ₁ := .f32) (φ₂ := .f32) dot_S128x256_S256x2_S128x2_1_0_0_1_n_n (some .fp32) P0 P3 (constant S128x2 .f32 0x00000000#32) (ix2 p e)
      = ∑ d : Fin 256, P0 (ix2 p d) * P3 (ix2 d e) := by
  simp only [matmul]
  rw [Ideal.matmul_constant_zero_apply, ← Equiv.sum_comp (contrEquiv1 dot_S128x256_S256x2_S128x2_1_0_0_1_n_n 256 rfl rfl).symm]
  refine Finset.sum_congr rfl fun k _ => ?_
  have hk := contrEquiv1_symm_val dot_S128x256_S256x2_S128x2_1_0_0_1_n_n 256 rfl rfl k
  have el : dot_S128x256_S256x2_S128x2_1_0_0_1_n_n.lhsIdx (ix2 p e) ((contrEquiv1 dot_S128x256_S256x2_S128x2_1_0_0_1_n_n 256 rfl rfl).symm k) = ix2 p k := funext fun a => Fin.ext (by
    match a with
    | ⟨0, _⟩ =>
      show (dot_S128x256_S256x2_S128x2_1_0_0_1_n_n.lhsIdx (ix2 p e) _ 0).val = p.val
      unfold DotDims.lhsIdx
      rw [dif_neg (show ¬(0 : Fin S128x256.rank) ∈ dot_S128x256_S256x2_S128x2_1_0_0_1_n_n.lhsBatch by decide), dif_pos (show (0 : Fin S128x256.rank) ∈ dot_S128x256_S256x2_S128x2_1_0_0_1_n_n.lhsNonContracting by decide)]
      rfl
    | ⟨1, _⟩ => exact (dot_S128x256_S256x2_S128x2_1_0_0_1_n_n.lhsIdx_val_of_single rfl (ix2 p e) _).trans hk)
  have er : dot_S128x256_S256x2_S128x2_1_0_0_1_n_n.rhsIdx (ix2 p e) ((contrEquiv1 dot_S128x256_S256x2_S128x2_1_0_0_1_n_n 256 rfl rfl).symm k) = ix2 k e := funext fun a => Fin.ext (by
    match a with
    | ⟨0, _⟩ => exact (dot_S128x256_S256x2_S128x2_1_0_0_1_n_n.rhsIdx_val_of_single rfl (ix2 p e) _).trans hk
    | ⟨1, _⟩ =>
      show (dot_S128x256_S256x2_S128x2_1_0_0_1_n_n.rhsIdx (ix2 p e) _ 1).val = e.val
      unfold DotDims.rhsIdx
      rw [dif_neg (show ¬(1 : Fin S256x2.rank) ∈ dot_S128x256_S256x2_S128x2_1_0_0_1_n_n.rhsBatch by decide), dif_pos (show (1 : Fin S256x2.rank) ∈ dot_S128x256_S256x2_S128x2_1_0_0_1_n_n.rhsNonContracting by decide)]
      rfl)
  rw [el, er]

end Cert.KernelIdeal.Block

end
-- ==== Proof.BlockValue.lean ====
/-
  What one grid point's body stores, entry by entry: the head, the block of negated distances, the normalised
  block and the stored value, each read at row p and column q of the block (the reductions, matrix products and
  layout reads are in BlockReads.lean; the two laws in SoftNeighbours.lean).
-/
import proofs.«172229_j27762668601761_2_alg».proof.Proof.BlockReads

noncomputable section

namespace Cert.KernelIdeal.Block

open Cert.KernelIdeal Cert.KernelIdeal.Gen Idealize.ShloMosaic Idealize.ShloMosaic.ValueIdx Idealize.ShloMosaic.TcCoe Cert.SoftKnn

/-! ## The head -/

/-- The head's payload at (p, e): the logistic of `⟨row p, column e of the weights⟩ + bias e`. -/
theorem head_apply (P0 : Vec Ideal S128x256 .f32) (P3 : Vec Ideal S256x2 .f32) (P4 : Vec Ideal S1x2 .f32)
    (p : Fin 128) (e : Fin 2) :
    k0_pay3 P0 P3 P4 (ix2 p e)
      = Ideal.logistic ((∑ d : Fin 256, P0 (ix2 p d) * P3 (ix2 d e)) + P4 (ix2 (0 : Fin 1) e)) := by
  show Ideal.logistic (matmul (F := Ideal) (φ₁ := .f32) (φ₂ := .f32) dot_S128x256_S256x2_S128x2_1_0_0_1_n_n (some .fp32) P0 P3 (constant S128x2 .f32 0x00000000#32) (ix2 p e)
      + broadcastTo S128x2 (shapeCast S1x2 P4 shapeCasts_S1x2_S1x2) broadcasts_S1x2_S128x2 (ix2 p e)) = _
  rw [headDots_apply, shapeCast_self, broadcastTo_1b_ab_apply]

/-! ## The block of negated distances -/

/-- The body's [128, 8192] value `0 − √(max (‖row‖² + ‖neighbour‖² − 2·⟨row, neighbour⟩) 0)`, as the body spells it. -/
def negDistBlock (P0 : Vec Ideal S128x256 .f32) (P1 : Vec Ideal S8192x256 .f32) (P2 : Vec Ideal S1x8192 .f32) :
    FVec Ideal S128x8192 .f32 :=
  subf (broadcast S128x8192 (Scalar.ofBits (F := Ideal) .f32 0x00000000#32))
    (sqrt (maximumf
      (subf
        (addf
          (broadcastTo S128x8192 (shapeCast S128x1 (multiReduction (F := Ideal) .add [1] S128 (mulf P0 P0) 0x00000000#32 reduces_S128x256_S128 (.inl rfl) rfl) shapeCasts_S128_S128x1) broadcasts_S128x1_S128x8192)
          (broadcastTo S128x8192 (shapeCast S1x8192 P2 shapeCasts_S1x8192_S1x8192) broadcasts_S1x8192_S128x8192))
        (mulf (broadcast S128x8192 (Scalar.ofBits (F := Ideal) .f32 0x40000000#32)) (matmul (F := Ideal) (φ₁ := .f32) (φ₂ := .f32) dot_S128x256_S8192x256_S128x8192_1_1_0_0_n_n (some .fp32) P0 P1 (constant S128x8192 .f32 0x00000000#32))))
      (broadcast S128x8192 (Scalar.ofBits (F := Ideal) .f32 0x00000000#32))))

/-- At (p, q) it is minus the distance from query row p to neighbour q, the neighbour's squared norm read off `P2`. -/
theorem negDistBlock_apply (P0 : Vec Ideal S128x256 .f32) (P1 : Vec Ideal S8192x256 .f32) (P2 : Vec Ideal S1x8192 .f32)
    (p : Fin 128) (q : Fin 8192) :
    negDistBlock P0 P1 P2 (ix2 p q)
      = negDist (fun d => P0 (ix2 p d)) (fun d => P1 (ix2 q d)) (P2 (ix2 (0 : Fin 1) q)) := by
  show Ideal.ofBits .f32 0x00000000#32
      - Ideal.sqrt (max
          ((broadcastTo S128x8192 (shapeCast S128x1 (multiReduction (F := Ideal) .add [1] S128 (mulf P0 P0) 0x00000000#32 reduces_S128x256_S128 (.inl rfl) rfl) shapeCasts_S128_S128x1) broadcasts_S128x1_S128x8192 (ix2 p q)
              + broadcastTo S128x8192 (shapeCast S1x8192 P2 shapeCasts_S1x8192_S1x8192) broadcasts_S1x8192_S128x8192 (ix2 p q))
            - Ideal.ofBits .f32 0x40000000#32 * matmul (F := Ideal) (φ₁ := .f32) (φ₂ := .f32) dot_S128x256_S8192x256_S128x8192_1_1_0_0_n_n (some .fp32) P0 P1 (constant S128x8192 .f32 0x00000000#32) (ix2 p q))
          (Ideal.ofBits .f32 0x00000000#32)) = _
  rw [spreadCol_apply, asCol_apply, rowSq_apply, shapeCast_self, broadcastTo_1b_ab_apply, dots_apply]
  unfold negDist
  rw [ofBits_zero, zero_sub_eq_neg]

/-! ## The normalised block -/

/-- The body's clamped, rescaled block as a tree of vector operations over the block of negated distances. -/
theorem normBlock_eq (P0 : Vec Ideal S128x256 .f32) (P1 : Vec Ideal S8192x256 .f32) (P2 : Vec Ideal S1x8192 .f32) :
    k0_pay2 P0 P1 P2 = maximumf
      (mulf (subf (negDistBlock P0 P1 P2) (broadcastTo S128x8192 (shapeCast S128x1 (multiReduction (F := Ideal) .minimumf [1] S128 (negDistBlock P0 P1 P2) 0x7F800000#32 reduces_S128x8192_S128 (.inl rfl) rfl) shapeCasts_S128_S128x1) broadcasts_S128x1_S128x8192))
        (broadcastTo S128x8192
            (divf (broadcast S128x1 (Scalar.ofBits (F := Ideal) .f32 0x3F800000#32))
              (subf (shapeCast S128x1 (multiReduction (F := Ideal) .maximumf [1] S128 (negDistBlock P0 P1 P2) 0xFF800000#32 reduces_S128x8192_S128 (.inl rfl) rfl) shapeCasts_S128_S128x1) (shapeCast S128x1 (multiReduction (F := Ideal) .minimumf [1] S128 (negDistBlock P0 P1 P2) 0x7F800000#32 reduces_S128x8192_S128 (.inl rfl) rfl) shapeCasts_S128_S128x1)))
            broadcasts_S128x1_S128x8192))
      (broadcast S128x8192 (Scalar.ofBits (F := Ideal) .f32 0x2B8CBCCC#32)) := rfl

/-- Read at (p, q): the row's minimum and maximum are the lane reductions, and the product with the reciprocal of the
    range, clamped, is the quotient, clamped — `normSim` of row p of the negated distances. -/
theorem normBlock_read (P0 : Vec Ideal S128x256 .f32) (P1 : Vec Ideal S8192x256 .f32) (P2 : Vec Ideal S1x8192 .f32)
    (p : Fin 128) (q : Fin 8192) :
    max
      ((negDistBlock P0 P1 P2 (ix2 p q)
          - broadcastTo S128x8192 (shapeCast S128x1 (multiReduction (F := Ideal) .minimumf [1] S128 (negDistBlock P0 P1 P2) 0x7F800000#32 reduces_S128x8192_S128 (.inl rfl) rfl) shapeCasts_S128_S128x1) broadcasts_S128x1_S128x8192 (ix2 p q))
        * broadcastTo S128x8192
            (divf (broadcast S128x1 (Scalar.ofBits (F := Ideal) .f32 0x3F800000#32))
              (subf (shapeCast S128x1 (multiReduction (F := Ideal) .maximumf [1] S128 (negDistBlock P0 P1 P2) 0xFF800000#32 reduces_S128x8192_S128 (.inl rfl) rfl) shapeCasts_S128_S128x1) (shapeCast S128x1 (multiReduction (F := Ideal) .minimumf [1] S128 (negDistBlock P0 P1 P2) 0x7F800000#32 reduces_S128x8192_S128 (.inl rfl) rfl) shapeCasts_S128_S128x1)))
            broadcasts_S128x1_S128x8192 (ix2 p q))
      (Ideal.ofBits .f32 0x2B8CBCCC#32) = normSim (fun q' => negDistBlock P0 P1 P2 (ix2 p q')) q := by
  rw [spreadCol_apply, spreadCol_apply, divf_apply, subf_apply, broadcast_apply, asCol_apply, asCol_apply, rowMin_apply,
    rowMax_apply]
  exact normSim_recip (fun q' => negDistBlock P0 P1 P2 (ix2 p q')) q

theorem normBlock_apply (P0 : Vec Ideal S128x256 .f32) (P1 : Vec Ideal S8192x256 .f32) (P2 : Vec Ideal S1x8192 .f32)
    (p : Fin 128) (q : Fin 8192) :
    k0_pay2 P0 P1 P2 (ix2 p q) = normSim (fun q' => negDistBlock P0 P1 P2 (ix2 p q')) q := by
  rw [normBlock_eq, maximumf_apply, mulf_apply, subf_apply, broadcast_apply]
  exact normBlock_read P0 P1 P2 p q

/-! ## The stored value -/

/-- What the body stores at (p, q) of the block is `entry` of query row p against all neighbours, at column q. -/
theorem block_entry (P0 : Vec Ideal S128x256 .f32) (P1 : Vec Ideal S8192x256 .f32) (P2 : Vec Ideal S1x8192 .f32)
    (P3 : Vec Ideal S256x2 .f32) (P4 : Vec Ideal S1x2 .f32) (p : Fin 128) (q : Fin 8192) :
    ValueP.E5 (F := Ideal) P0 P1 P2 P3 P4 (ix2 p q)
      = entry (fun d => P0 (ix2 p d)) (fun j d => P1 (ix2 j d)) (fun j => P2 (ix2 (0 : Fin 1) j))
          (fun d => P3 (ix2 d (0 : Fin 2))) (fun d => P3 (ix2 d (1 : Fin 2)))
          (P4 (ix2 (0 : Fin 1) (0 : Fin 2))) (P4 (ix2 (0 : Fin 1) (1 : Fin 2))) q := by
  have i0 : ValueP.ix5_0 (ix2 p q) = ix2 p q :=
    funext fun a => Fin.ext (by match a with | ⟨0, _⟩ => rfl | ⟨1, _⟩ => rfl)
  have i1 : ValueP.ix5_1 (ix2 p q) = ix2 p q :=
    funext fun a => Fin.ext (by match a with | ⟨0, _⟩ => rfl | ⟨1, _⟩ => rfl)
  have i2 : ValueP.ix5_2 (ix2 p q) = ix2 p (0 : Fin 2) :=
    funext fun a => Fin.ext (by match a with | ⟨0, _⟩ => rfl | ⟨1, _⟩ => rfl)
  have i3 : ValueP.ix5_3 (ix2 p q) = ix2 p (1 : Fin 2) :=
    funext fun a => Fin.ext (by match a with | ⟨0, _⟩ => rfl | ⟨1, _⟩ => rfl)
  have i4 : ValueP.ix5_4 (ix2 p q) = ix2 p (1 : Fin 2) :=
    funext fun a => Fin.ext (by match a with | ⟨0, _⟩ => rfl | ⟨1, _⟩ => rfl)
  have i5 : ValueP.ix5_5 (ix2 p q) = ix2 p (0 : Fin 2) :=
    funext fun a => Fin.ext (by match a with | ⟨0, _⟩ => rfl | ⟨1, _⟩ => rfl)
  have i6 : ValueP.ix5_6 (ix2 p q) = ix2 p q :=
    funext fun a => Fin.ext (by match a with | ⟨0, _⟩ => rfl | ⟨1, _⟩ => rfl)
  have i7 : ValueP.ix5_7 (ix2 p q) = ix2 p q :=
    funext fun a => Fin.ext (by match a with | ⟨0, _⟩ => rfl | ⟨1, _⟩ => rfl)
  have i8 : ValueP.ix5_8 (ix2 p q) = ix2 p (0 : Fin 2) :=
    funext fun a => Fin.ext (by match a with | ⟨0, _⟩ => rfl | ⟨1, _⟩ => rfl)
  have hrow : (fun q' => negDistBlock P0 P1 P2 (ix2 p q'))
      = fun q' => negDist (fun d => P0 (ix2 p d)) (fun d => P1 (ix2 q' d)) (P2 (ix2 (0 : Fin 1) q')) :=
    funext fun q' => negDistBlock_apply P0 P1 P2 p q'
  dsimp only [ValueP.E5]
  rw [i0, i1, i2, i3, i4, i5, i6, i7, i8, normBlock_apply, head_apply, head_apply, hrow]
  unfold entry
  exact soft_log_sub (normSim (fun q' => negDist (fun d => P0 (ix2 p d)) (fun d => P1 (ix2 q' d)) (P2 (ix2 (0 : Fin 1) q'))) q)
    (Ideal.logistic ((∑ d : Fin 256, P0 (ix2 p d) * P3 (ix2 d (0 : Fin 2))) + P4 (ix2 (0 : Fin 1) (0 : Fin 2))))
    (clip (Ideal.logistic ((∑ d : Fin 256, P0 (ix2 p d) * P3 (ix2 d (1 : Fin 2))) + P4 (ix2 (0 : Fin 1) (1 : Fin 2)))))
    (eps_le_normSim _ q)

end Cert.KernelIdeal.Block

end
-- ==== Proof.ResultArray.lean ====
/-
  From what each grid point writes back to the whole result array.

  The grid has 64 points; point t stages rows 128·t … 128·t + 127 of the queries (window 0), all neighbours
  (window 1), the row of the neighbours' squared norms that the host computes before the launch (window 2: the
  sums of squares along each neighbour row, laid out as one row of 8192), the head's weights (window 3) and its
  bias as a [1, 2] row (window 4), and writes back rows 128·t … 128·t + 127 of the result (window 5). The 64 row
  blocks tile the [8192, 8192] result, so the array after the run is `softKnnArr` of the argument arrays.
-/
import proofs.«172229_j27762668601761_2_alg».proof.Proof.BlockValue
import Idealize.ShloMosaic.Lib.StableHlo.Run
import Idealize.ShloMosaic.Lib.IdealHost

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo Cert.SoftKnn Cert.KernelIdeal.Block
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-! ## The index maps, decided over the 64 grid points -/

/-- The query window moves with the result window along the rows; every other input window sits at block (0, 0);
    the result window's row block stays below 64 and its column block is 0. -/
theorem blockFacts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 63 ∧ win0_5.index t (1 : Fin 2) = 0 :=
  (by decide +kernel : ∀ t : Fin grid0.N, _)

/-- Every row block of the result is some point's. -/
theorem blockOnto : ∀ b : Fin 64, ∃ t : Fin cfg0.N, win0_5.index t = ![b.val, 0] :=
  (by decide +kernel : ∀ b : Fin 64, ∃ t : Fin grid0.N, win0_5.index t = ![b.val, 0])

/-! ## The two arrays the host writes before the launch -/

/-- Window 2's array at (0, j): the sum of the squares along neighbour row j. -/
theorem sqNorms_apply (c : Dev nD) (j : Fin 8192) :
    (V m c main_v3 : S1x8192.Idx → EReal) (ix2 (0 : Fin 1) j)
      = sqNorm (m ((c : Thread nD τ).loc main_arg1)) j := by
  have e : (V m c main_v3 : S1x8192.Idx → EReal)
      = shapeCast S1x8192 (broadcastInDim S8192x1 ![0] bcast_S8192_S8192x1_0
          (Host.reduceAdd (F := Ideal) (mulf (m ((c : Thread nD τ).loc main_arg1)) (m ((c : Thread nD τ).loc main_arg1)))
            (constant S_ .f32 0x00000000#32) reducesTo_S8192x256_S8192_d1 h_S_)) shapeCasts_S8192x1_S1x8192 := by
    dsimp only [Gen.V, Gen.hostOps0]; after_results; rfl
  rw [e]
  refine (shapeCast_apply _ shapeCasts_S8192x1_S1x8192 (ix2 (0 : Fin 1) j) (ix2 j (0 : Fin 1)) (by
    rw [Shape.rowMajor_val_two, Shape.rowMajor_val_two]; show j.val * 1 + 0 = 0 * 8192 + j.val; omega)).trans ?_
  refine (broadcastInDim_apply _ bcast_S8192_S8192x1_0 _ (ix2 j (0 : Fin 1)) (ix1 j) (fun a => match a with
    | ⟨0, _⟩ => by show j.val = if (8192 : Nat) = 1 then 0 else j.val; rw [if_neg (by decide)])).trans ?_
  simp only [Host.reduceAdd, Ideal.hostReduceAdd_def]
  rw [Ideal.hostReduceAdd_single reducesTo_S8192x256_S8192_d1 (by decide)]
  show Ideal.ofBits .f32 0x00000000#32 + _ = _
  rw [ofBits_zero, zero_add]
  unfold sqNorm
  refine Finset.sum_congr rfl fun d _ => ?_
  have el : Shape.Reduces.lift (s := S8192x256) (t := S8192) (a := 1) (by decide) (ix1 j) d = ix2 j d :=
    funext fun a => Fin.ext (by match a with | ⟨0, _⟩ => rfl | ⟨1, _⟩ => rfl)
  rw [el]; rfl

/-- Window 4's array at (0, e): entry e of the bias. -/
theorem biasRow_apply (c : Dev nD) (e : Fin 2) :
    (V m c main_v4 : S1x2.Idx → EReal) (ix2 (0 : Fin 1) e) = (m ((c : Thread nD τ).loc main_arg3) : S2.Idx → EReal) (ix1 e) := by
  have h : (V m c main_v4 : S1x2.Idx → EReal) = shapeCast S1x2 (m ((c : Thread nD τ).loc main_arg3)) shapeCasts_S2_S1x2 := by
    dsimp only [Gen.V, Gen.hostOps0]; after_results; rfl
  rw [h]
  exact shapeCast_apply _ shapeCasts_S2_S1x2 (ix2 (0 : Fin 1) e) (ix1 e) (by
    rw [Shape.rowMajor_val_one, Shape.rowMajor_val_two]; show e.val = 0 * 2 + e.val; omega)

/-! ## Which indices a point's block holds, and that the blocks cover the array -/

theorem mem_block (t : Fin cfg0.N) (i : S8192x8192.Idx) :
    i ∈ ((cfg0.win 5).blk t).view.set ↔ ∀ a : Fin 2, win0_5.index t a * S128x8192.size a ≤ (i a).val
      ∧ (i a).val < win0_5.index t a * S128x8192.size a + S128x8192.size a := by
  show i ∈ ((View.whole main_v5).slice (win0_5.rect t)).set ↔ _
  rw [View.set_slice_whole, Rect.mem_set_unit]
  exact Iff.rfl

theorem covered (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := blockOnto ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 8192 ≤ (i 1).val ∧ (i 1).val < win0_5.index t (1 : Fin 2) * 8192 + 8192; omega

/-! ## What a point writes back -/

/-- If a point's blocks read the argument arrays as stated — block row p of the queries is array row r, the other
    blocks are the whole arrays, the squared-norm row holds the neighbours' squared norms — then the body's result
    at (p, q) is the result's entry (r, q). -/
theorem point_value
    (X0 X1 : (⟨2, ![8192, 256]⟩ : Shape).Idx → EReal) (X2 : (⟨2, ![256, 2]⟩ : Shape).Idx → EReal)
    (X3 : (⟨1, ![2]⟩ : Shape).Idx → EReal)
    (P0 : Vec Ideal S128x256 .f32) (P1 : Vec Ideal S8192x256 .f32) (P2 : Vec Ideal S1x8192 .f32)
    (P3 : Vec Ideal S256x2 .f32) (P4 : Vec Ideal S1x2 .f32) (r : Fin 8192) (p : Fin 128) (q : Fin 8192)
    (h0 : ∀ d : Fin 256, P0 (ix2 p d) = X0 (ix2 r d))
    (h1 : ∀ (j : Fin 8192) (d : Fin 256), P1 (ix2 j d) = X1 (ix2 j d))
    (h2 : ∀ j : Fin 8192, P2 (ix2 (0 : Fin 1) j) = sqNorm X1 j)
    (h3 : ∀ (d : Fin 256) (e : Fin 2), P3 (ix2 d e) = X2 (ix2 d e))
    (h4 : ∀ e : Fin 2, P4 (ix2 (0 : Fin 1) e) = X3 (ix1 e)) :
    out0_5 P0 P1 P2 P3 P4 (ix2 p q) = softKnn X0 X1 X2 X3 r q := by
  unfold out0_5
  rw [ValueP.canon5_eq]
  simp only [View.ld_unit_zero (S := S128x256) zeroOffsets, View.ld_unit_zero (S := S8192x256) zeroOffsets,
    View.ld_unit_zero (S := S1x8192) zeroOffsets, View.ld_unit_zero (S := S256x2) zeroOffsets,
    View.ld_unit_zero (S := S1x2) zeroOffsets]
  rw [block_entry]
  unfold softKnn
  simp only [h0, h1, h2, h3, h4]

/-- What point t writes back is block t of the result array. -/
theorem flushed_eq (c : Dev nD) (t : Fin cfg0.N) :
    (dats m 0 c).flushed 5 t = ((cfg0.win 5).blk t).view.read (Elt Ideal)
      (softKnnArr (m ((c : Thread nD τ).loc main_arg0)) (m ((c : Thread nD τ).loc main_arg1)) (m ((c : Thread nD τ).loc main_arg2)) (m ((c : Thread nD τ).loc main_arg3))) := by
  rw [ValueP.flushed5]
  obtain ⟨f00, f01, f10, f11, f20, f21, f30, f31, f40, f41, f5le, f51⟩ := blockFacts t
  funext y
  have hy0 : (y 0).val < 128 := (y 0).isLt
  have hy1 : (y 1).val < 8192 := (y 1).isLt
  obtain ⟨p, q, rfl⟩ : ∃ (p : Fin 128) (q : Fin 8192), y = ix2 p q :=
    ⟨⟨(y 0).val, hy0⟩, ⟨(y 1).val, hy1⟩, funext fun a => Fin.ext (by match a with | ⟨0, _⟩ => rfl | ⟨1, _⟩ => rfl)⟩
  have hp : p.val < 128 := p.isLt
  show out0_5 (iblk m c 0 t) (iblk m c 1 t) (iblk m c 2 t) (iblk m c 3 t) (iblk m c 4 t) (ix2 p q)
      = softKnnArr (m ((c : Thread nD τ).loc main_arg0)) (m ((c : Thread nD τ).loc main_arg1)) (m ((c : Thread nD τ).loc main_arg2)) (m ((c : Thread nD τ).loc main_arg3)) (((cfg0.win 5).blk t).view.emb (ix2 p q))
  have hemb : ((cfg0.win 5).blk t).view.emb (ix2 p q)
      = ix2 (⟨win0_5.index t (0 : Fin 2) * 128 + p.val, by omega⟩ : Fin 8192) q :=
    funext fun a => Fin.ext (by
      match a with
      | ⟨0, _⟩ => show win0_5.index t (0 : Fin 2) * 128 + 1 * p.val = win0_5.index t (0 : Fin 2) * 128 + p.val; omega
      | ⟨1, _⟩ => show win0_5.index t (1 : Fin 2) * 8192 + 1 * q.val = q.val; omega)
  rw [hemb, softKnnArr_ix2]
  refine point_value (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (iblk m c 4 t)
    (⟨win0_5.index t (0 : Fin 2) * 128 + p.val, by omega⟩ : Fin 8192) p q ?_ ?_ ?_ ?_ ?_
  · intro d
    show V m c main_arg0 (((cfg0.win 0).blk t).view.emb (ix2 p d)) = _
    rw [V_main_arg0]
    refine congrArg (m ((c : Thread nD τ).loc main_arg0)) (funext fun a => Fin.ext ?_)
    match a with
    | ⟨0, _⟩ => show win0_0.index t (0 : Fin 2) * 128 + 1 * p.val = win0_5.index t (0 : Fin 2) * 128 + p.val; omega
    | ⟨1, _⟩ => show win0_0.index t (1 : Fin 2) * 256 + 1 * d.val = d.val; omega
  · intro j d
    show V m c main_arg1 (((cfg0.win 1).blk t).view.emb (ix2 j d)) = _
    rw [V_main_arg1]
    refine congrArg (m ((c : Thread nD τ).loc main_arg1)) (funext fun a => Fin.ext ?_)
    match a with
    | ⟨0, _⟩ => show win0_1.index t (0 : Fin 2) * 8192 + 1 * j.val = j.val; omega
    | ⟨1, _⟩ => show win0_1.index t (1 : Fin 2) * 256 + 1 * d.val = d.val; omega
  · intro j
    show V m c main_v3 (((cfg0.win 2).blk t).view.emb (ix2 (0 : Fin 1) j)) = _
    have e : ((cfg0.win 2).blk t).view.emb (ix2 (0 : Fin 1) j) = ix2 (0 : Fin 1) j :=
      funext fun a => Fin.ext (by
        match a with
        | ⟨0, _⟩ => show win0_2.index t (0 : Fin 2) * 1 + 1 * 0 = 0; omega
        | ⟨1, _⟩ => show win0_2.index t (1 : Fin 2) * 8192 + 1 * j.val = j.val; omega)
    rw [e]
    exact sqNorms_apply m c j
  · intro d e
    show V m c main_arg2 (((cfg0.win 3).blk t).view.emb (ix2 d e)) = _
    rw [V_main_arg2]
    refine congrArg (m ((c : Thread nD τ).loc main_arg2)) (funext fun a => Fin.ext ?_)
    match a with
    | ⟨0, _⟩ => show win0_3.index t (0 : Fin 2) * 256 + 1 * d.val = d.val; omega
    | ⟨1, _⟩ => show win0_3.index t (1 : Fin 2) * 2 + 1 * e.val = e.val; omega
  · intro e
    show V m c main_v4 (((cfg0.win 4).blk t).view.emb (ix2 (0 : Fin 1) e)) = _
    have e' : ((cfg0.win 4).blk t).view.emb (ix2 (0 : Fin 1) e) = ix2 (0 : Fin 1) e :=
      funext fun a => Fin.ext (by
        match a with
        | ⟨0, _⟩ => show win0_4.index t (0 : Fin 2) * 1 + 1 * 0 = 0; omega
        | ⟨1, _⟩ => show win0_4.index t (1 : Fin 2) * 2 + 1 * e.val = e.val; omega)
    rw [e']
    exact biasRow_apply m c e

/-! ## The array after the run -/

/-- The 64 row blocks cover the result, so it ends holding `softKnnArr` of the argument arrays. -/
theorem final (c : Dev nD) :
    (dats m 0 c).arrAt 5 cfg0.N = softKnnArr (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed_eq m c t) covered

/-- The kernel's run: it terminates without a fault, the result array holds `softKnnArr` of the arguments, and the
    arguments are unchanged. -/
theorem run : θ_run defs (onTc (τ := τ) (main (F := Ideal))) ⟨m, fun _ => 0, ρ⟩ fun r => ∀ c : Dev nD,
      r.2.mem ((c : Thread nD τ).loc main_v5) = softKnnArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.KernelIdeal.Whole

end
-- ==== Proof.ReferenceValue.lean ====
/-
  The reference's result, read one operation at a time, is `softKnn` of the argument arrays.

  The reference computes the same quantities in their textbook spelling: the head's logistic as
  `1 / (1 + exp (−z))` (which is the ideal logistic), the two gates by clipping it into `[ε, 1]`, the negated
  distances by a negation (where the other program subtracts from zero), the row minimum and maximum by
  reductions over the column axis (the same folds of `min` and `max`), the rescaling as a quotient and the
  logarithm of the quotient `s / k` — the forms `normSim` and `soft` are stated in. Both sums of squares carry
  the reduction's initial value `0`, which adds nothing.
-/
import proofs.«172229_j27762668601761_2_alg».proof.Proof.Gen.ReferenceIdeal.Read
import proofs.«172229_j27762668601761_2_alg».proof.Proof.SoftNeighbours
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Cert.SoftKnn

variable (x0 x1 : (⟨S8192x256, .f32⟩ : BufTy).Contents (Elt Ideal)) (x2 : (⟨S256x2, .f32⟩ : BufTy).Contents (Elt Ideal)) (x3 : (⟨S2, .f32⟩ : BufTy).Contents (Elt Ideal))

/-! ## The head and its two gates -/

/-- The head's logistic at (i, e). -/
theorem head_apply (i : Fin 8192) (e : Fin 2) :
    val_main_v9 (F := Ideal) x0 x2 x3 (ix2 i e)
      = Ideal.logistic ((∑ d : Fin 256, x0 (ix2 i d) * x2 (ix2 d e)) + x3 (ix1 e)) := by
  have el : ∀ k : Fin 256, lidx_main_v0 (ix2 i e) k = ix2 i k := fun k => funext fun a => Fin.ext (by match a with | ⟨0, _⟩ => rfl | ⟨1, _⟩ => rfl)
  have er : ∀ k : Fin 256, ridx_main_v0 (ix2 i e) k = ix2 k e := fun k => funext fun a => Fin.ext (by match a with | ⟨0, _⟩ => rfl | ⟨1, _⟩ => rfl)
  have eb : idx_main_v1 (idx_main_v2 (ix2 i e)) = ix1 e := funext fun a => Fin.ext (by match a with | ⟨0, _⟩ => rfl)
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply, eb]
  simp only [el, er]
  show Ideal.div (Ideal.ofBits .f32 0x3F800000#32)
      (Ideal.ofBits .f32 0x3F800000#32 + Ideal.exp (-((∑ d : Fin 256, x0 (ix2 i d) * x2 (ix2 d e)) + x3 (ix1 e)))) = _
  rw [ofBits_one]
  rfl

/-- The first gate of row i: the head's first logistic clipped. -/
theorem gate0_apply (i : Fin 8192) :
    val_main_v11 (F := Ideal) x0 x2 x3 (ix2 i (0 : Fin 1)) = clip (val_main_v9 (F := Ideal) x0 x2 x3 (ix2 i (0 : Fin 2))) := by
  have e : idx_main_v10 (ix2 i (0 : Fin 1)) = ix2 i (0 : Fin 2) := funext fun a => Fin.ext (by match a with | ⟨0, _⟩ => rfl | ⟨1, _⟩ => rfl)
  rw [val_main_v11_apply, val_main_call0_v4_apply, val_main_call0_v3_apply, val_main_cst_2_apply, val_main_call0_v2_apply,
    val_main_call0_v1_apply, val_main_call0_v0_apply, val_main_cst_1_apply, val_main_v10_apply, e]
  rfl

/-- The second gate of row i: the head's second logistic clipped. -/
theorem gate1_apply (i : Fin 8192) :
    val_main_v13 (F := Ideal) x0 x2 x3 (ix2 i (0 : Fin 1)) = clip (val_main_v9 (F := Ideal) x0 x2 x3 (ix2 i (1 : Fin 2))) := by
  have e : idx_main_v12 (ix2 i (0 : Fin 1)) = ix2 i (1 : Fin 2) := funext fun a => Fin.ext (by match a with | ⟨0, _⟩ => rfl | ⟨1, _⟩ => rfl)
  rw [val_main_v13_apply, val_main_call1_v4_apply, val_main_call1_v3_apply, val_main_cst_4_apply, val_main_call1_v2_apply,
    val_main_call1_v1_apply, val_main_call1_v0_apply, val_main_cst_3_apply, val_main_v12_apply, e]
  rfl

/-! ## The negated distances -/

theorem negDist_apply (i j : Fin 8192) :
    val_main_v32 (F := Ideal) x0 x1 (ix2 i j)
      = negDist (fun d => x0 (ix2 i d)) (fun d => x1 (ix2 j d)) (sqNorm x1 j) := by
  have e1 : ∀ k : Fin 256, idx_main_v15 (idx_main_v16 (idx_main_v21 (ix2 i j))) k = ix2 i k := fun k => funext fun a => Fin.ext (by match a with | ⟨0, _⟩ => rfl | ⟨1, _⟩ => rfl)
  have e2 : ∀ k : Fin 256, idx_main_v18 (idx_main_v19 (idx_main_v20 (idx_main_v22 (ix2 i j)))) k = ix2 j k := fun k => funext fun a => Fin.ext (by match a with | ⟨0, _⟩ => rfl | ⟨1, _⟩ => rfl)
  have e3 : ∀ k : Fin 256, lidx_main_v25 (ix2 i j) k = ix2 i k := fun k => funext fun a => Fin.ext (by match a with | ⟨0, _⟩ => rfl | ⟨1, _⟩ => rfl)
  have e4 : ∀ k : Fin 256, idx_main_v24 (ridx_main_v25 (ix2 i j) k) = ix2 j k := fun k => funext fun a => Fin.ext (by match a with | ⟨0, _⟩ => rfl | ⟨1, _⟩ => rfl)
  rw [val_main_v32_apply, val_main_v31_apply, val_main_v30_apply, val_main_v29_apply, val_main_cst_8_apply,
    val_main_v28_apply, val_main_v23_apply, val_main_v21_apply, val_main_v16_apply, val_main_v15_apply,
    val_main_cst_5_apply, val_main_v22_apply, val_main_v20_apply, val_main_v19_apply, val_main_v18_apply,
    val_main_cst_6_apply, val_main_v27_apply, val_main_v26_apply, val_main_cst_7_apply, val_main_v25_apply]
  simp only [val_main_v14_apply, val_main_v17_apply, val_main_v24_apply, e1, e2, e3, e4]
  show -(Ideal.sqrt (max
      (((Ideal.ofBits .f32 0x00000000#32 + ∑ k : Fin 256, x0 (ix2 i k) * x0 (ix2 i k))
          + (Ideal.ofBits .f32 0x00000000#32 + ∑ k : Fin 256, x1 (ix2 j k) * x1 (ix2 j k)))
        - Ideal.ofBits .f32 0x40000000#32 * ∑ k : Fin 256, x0 (ix2 i k) * x1 (ix2 j k))
      (Ideal.ofBits .f32 0x00000000#32))) = _
  unfold negDist sqNorm
  rw [ofBits_zero, zero_add, zero_add]

/-! ## The row minimum and maximum -/

theorem rowMin_apply (i : Fin 8192) :
    val_main_v33 (F := Ideal) x0 x1 (ix1 i) = rowMin (fun k => val_main_v32 (F := Ideal) x0 x1 (ix2 i k)) := by
  have h : S8192x8192.Reduces [1] S8192 :=
    ⟨reducesTo_S8192x8192_S8192_d1.1, Nat.one_pos, reducesTo_S8192x8192_S8192_d1.2⟩
  unfold val_main_v33
  refine (Host.reduce_eq_fold_single (FloatOps.minimumf (F := Ideal) (φ := .f32)) (val_main_v32 (F := Ideal) x0 x1) (val_main_cst_9 (F := Ideal))
    reducesTo_S8192x8192_S8192_d1 h h_S_ (ix1 i)).trans ?_
  have e : (val_main_v32 (F := Ideal) x0 x1 ∘ h.lift (ix1 i)) = fun k => val_main_v32 (F := Ideal) x0 x1 (ix2 i k) :=
    funext fun k => congrArg (val_main_v32 (F := Ideal) x0 x1) (funext fun a => Fin.ext (by match a with | ⟨0, _⟩ => rfl | ⟨1, _⟩ => rfl))
  rw [e]; rfl

theorem rowMax_apply (i : Fin 8192) :
    val_main_v35 (F := Ideal) x0 x1 (ix1 i) = rowMax (fun k => val_main_v32 (F := Ideal) x0 x1 (ix2 i k)) := by
  have h : S8192x8192.Reduces [1] S8192 :=
    ⟨reducesTo_S8192x8192_S8192_d1.1, Nat.one_pos, reducesTo_S8192x8192_S8192_d1.2⟩
  unfold val_main_v35
  refine (Host.reduce_eq_fold_single (FloatOps.maximumf (F := Ideal) (φ := .f32)) (val_main_v32 (F := Ideal) x0 x1) (val_main_cst_10 (F := Ideal))
    reducesTo_S8192x8192_S8192_d1 h h_S_ (ix1 i)).trans ?_
  have e : (val_main_v32 (F := Ideal) x0 x1 ∘ h.lift (ix1 i)) = fun k => val_main_v32 (F := Ideal) x0 x1 (ix2 i k) :=
    funext fun k => congrArg (val_main_v32 (F := Ideal) x0 x1) (funext fun a => Fin.ext (by match a with | ⟨0, _⟩ => rfl | ⟨1, _⟩ => rfl))
  rw [e]; rfl

/-! ## The normalised similarity -/

theorem normSim_apply (i j : Fin 8192) :
    val_main_v43 (F := Ideal) x0 x1 (ix2 i j) = normSim (fun k => val_main_v32 (F := Ideal) x0 x1 (ix2 i k)) j := by
  have e1 : idx_main_v34 (idx_main_v37 (ix2 i j)) = ix1 i := funext fun a => Fin.ext (by match a with | ⟨0, _⟩ => rfl)
  have e2 : idx_main_v36 (idx_main_v40 (ix2 i j)) = ix1 i := funext fun a => Fin.ext (by match a with | ⟨0, _⟩ => rfl)
  have e3 : idx_main_v34 (idx_main_v40 (ix2 i j)) = ix1 i := funext fun a => Fin.ext (by match a with | ⟨0, _⟩ => rfl)
  rw [val_main_v43_apply, val_main_v42_apply, val_main_cst_11_apply, val_main_v41_apply, val_main_v38_apply,
    val_main_v37_apply, val_main_v34_apply, e1, val_main_v40_apply, val_main_v39_apply, val_main_v36_apply, e2,
    val_main_v34_apply, e3, rowMin_apply, rowMax_apply]
  rfl

/-! ## The result -/

theorem result_apply (i j : Fin 8192) :
    val_main_v58 (F := Ideal) x0 x1 x2 x3 (ix2 i j) = softKnn x0 x1 x2 x3 i j := by
  have e47 : idx_main_v47 (ix2 i j) = ix2 i (0 : Fin 1) := funext fun a => Fin.ext (by match a with | ⟨0, _⟩ => rfl | ⟨1, _⟩ => rfl)
  have e49 : idx_main_v49 (ix2 i j) = ix2 i (0 : Fin 1) := funext fun a => Fin.ext (by match a with | ⟨0, _⟩ => rfl | ⟨1, _⟩ => rfl)
  have e51 : idx_main_v51 (ix2 i j) = ix2 i (0 : Fin 1) := funext fun a => Fin.ext (by match a with | ⟨0, _⟩ => rfl | ⟨1, _⟩ => rfl)
  have e55 : idx_main_v55 (ix2 i j) = ix2 i (0 : Fin 1) := funext fun a => Fin.ext (by match a with | ⟨0, _⟩ => rfl | ⟨1, _⟩ => rfl)
  have hrow : (fun k => val_main_v32 (F := Ideal) x0 x1 (ix2 i k))
      = fun k => negDist (fun d => x0 (ix2 i d)) (fun d => x1 (ix2 k d)) (sqNorm x1 k) :=
    funext fun k => negDist_apply x0 x1 i k
  rw [val_main_v58_apply, val_main_v57_apply, val_main_call2_v1_apply, val_main_call2_v0_apply, val_main_cst_13_apply,
    val_main_v56_apply, val_main_v55_apply, e55, val_main_v54_apply, val_main_v53_apply, val_main_v52_apply,
    val_main_v51_apply, e51, val_main_v50_apply, val_main_v49_apply, e49, val_main_v46_apply, val_main_v45_apply,
    val_main_v44_apply, val_main_cst_12_apply, val_main_v48_apply, val_main_v47_apply, e47, normSim_apply, gate0_apply,
    gate1_apply, head_apply, head_apply, hrow]
  rfl

/-- The reference's result array is `softKnnArr` of its arguments. -/
theorem result_eq : val_main_v58 (F := Ideal) x0 x1 x2 x3 = softKnnArr x0 x1 x2 x3 := by
  funext idx
  obtain ⟨i, j, rfl⟩ : ∃ (i j : Fin 8192), idx = ix2 i j := ⟨idx 0, idx 1, eq_ix2 idx⟩
  rw [softKnnArr_ix2]
  exact result_apply x0 x1 x2 x3 i j

end Cert.ReferenceIdeal.RefValue

end
-- ==== Proof.lean ====
/-
  The soft nearest-neighbour weighting kernel against its reference, on the extended reals.

  For each of 8192 query rows `x_i` and 8192 neighbour rows `y_j` (256 features) both programs compute
      d_ij = −√(max (‖x_i‖² + ‖y_j‖² − 2⟨x_i, y_j⟩) 0),
  rescale each row by its range, `s_ij = max ((d_ij − min_j d_ij) / (max_j d_ij − min_j d_ij)) ε`, take two gates per
  row from a linear head, `k_i, t_i = clip (logistic (⟨x_i, w_e⟩ + b_e))` into `[ε, 1]`, and return
      s_ij + (if s_ij ≤ k_i then (t_i / (1 − t_i)) · (k_i − s_ij) · log (s_ij / k_i) else 0).
  The kernel works on 64 blocks of 128 query rows, multiplies by the reciprocal `1 / (max − min)` of the range
  instead of dividing by it, and writes `log s − log k` for `log (s / k)`; the reference divides and takes the
  logarithm of the quotient. The two laws that make these one function on the extended reals — the reciprocal
  under the clamp `max · ε` (true even where the range is zero: there the product is `0` and the quotient `⊥`, and
  the clamp sends both to `ε`), and the logarithm of a quotient for `s ≥ ε > 0` and a clipped, hence real and
  positive, `k` — are in Proof/LibClampLogLaws.lean; the common function `softKnn` in Proof/SoftNeighbours.lean; the
  kernel's block entry by entry in Proof/BlockReads.lean and Proof/BlockValue.lean, its 64 blocks assembled into
  the whole array in Proof/ResultArray.lean; the reference read operation by operation in
  Proof/ReferenceValue.lean. Neither law needs the inputs to be finite, so the precondition is not opened.
  The three frames are the programs' runs with the results dropped; the idealization rewrote nothing, so
  `preserves` has nothing to state.
-/
import proofs.«172229_j27762668601761_2_alg».proof.Defs
import proofs.«172229_j27762668601761_2_alg».proof.Proof.Gen.Kernel
import proofs.«172229_j27762668601761_2_alg».proof.Proof.Gen.Kernel.Skeleton
import proofs.«172229_j27762668601761_2_alg».proof.Proof.Gen.Kernel.Launch
import proofs.«172229_j27762668601761_2_alg».proof.Proof.Gen.Kernel.Points
import proofs.«172229_j27762668601761_2_alg».proof.Proof.Gen.Kernel.Frame
import proofs.«172229_j27762668601761_2_alg».proof.Proof.Gen.KernelIdeal
import proofs.«172229_j27762668601761_2_alg».proof.Proof.Gen.KernelIdeal.Skeleton
import proofs.«172229_j27762668601761_2_alg».proof.Proof.Gen.KernelIdeal.Launch
import proofs.«172229_j27762668601761_2_alg».proof.Proof.Gen.KernelIdeal.Points
import proofs.«172229_j27762668601761_2_alg».proof.Proof.Gen.KernelIdeal.Frame
import proofs.«172229_j27762668601761_2_alg».proof.Proof.Gen.ReferenceIdeal
import proofs.«172229_j27762668601761_2_alg».proof.Proof.Gen.Pre_finite_inputs
import proofs.«172229_j27762668601761_2_alg».proof.Proof.Gen.ReferenceIdeal.Run
import proofs.«172229_j27762668601761_2_alg».proof.Proof.Gen.ReferenceIdeal.Read
import proofs.«172229_j27762668601761_2_alg».proof.Proof.ResultArray
import proofs.«172229_j27762668601761_2_alg».proof.Proof.ReferenceValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `softKnnArr` of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
